-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x64 .f32) (main_arg9 : FVec F S1x64 .f32) (main_arg10 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x64 .f32) (main_arg9 : FVec F S1x64 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S1x64 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S1x1 : Shape := ⟨2, ![1, 1]⟩
abbrev S100000x1 : Shape := ⟨2, ![100000, 1]⟩
abbrev S10000x1 : Shape := ⟨2, ![10000, 1]⟩
abbrev S10000 : Shape := ⟨1, ![10000]⟩

abbrev nBuf : Space → Nat
  | .hbm => 49
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x64, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x1, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S1x1, .f32⟩
  | .hbm, ⟨48, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S10000x64 : S1x64.Broadcasts S10000x64
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S10000x64_S10000 : S10000x64.Reduces [1] S10000
  shapeCasts_S10000_S10000x1 : S10000.ShapeCasts S10000x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S100000x1.size a
  hwx1_7 : ∀ i : grid1.Coords, EltTy.bits .f32 = 32 ∨ (Rect.block (s := S100000x1) S10000x1.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v16) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x64, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x1, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .i1⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S64x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S64x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .i1⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S64x1, .f32⟩
  | .hbm, ⟨75, _⟩ => ⟨S100000x1, .f32⟩
  | .hbm, ⟨76, _⟩ => ⟨S1x1, .f32⟩
  | .hbm, ⟨77, _⟩ => ⟨S100000x1, .f32⟩
  | .hbm, ⟨78, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its result array named.

  The program is four segments: the host operations that build the first aggregation, the first tiled kernel, the
  host operations that build the second aggregation from the first kernel's output, and the second tiled kernel.
  Every weakly fair execution terminates without a fault; the argument arrays end as launched, and the result array
  ends at what the second kernel's write-backs leave: the fold of its ten tiles' write-backs over the array as the
  kernel found it.
-/
import proofs.«167857_j58153857188393_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments, read at the result array and at every argument array. -/
theorem run : θ_run defs (onTc (τ := τ) (main (F := F))) ⟨m, fun _ => 0, ρ⟩ (fun r => ∀ c : Dev nD,
      r.2.mem ((c.tc : Thread nD τ).loc main_v31) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v31 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.Layer.lean ====
/-
  The dense part of a graph-convolution layer on the extended reals, entry by entry.

  For a node `r` and an output feature `j`, with `A` the aggregated neighbour features, `X` the node's own
  features, `Wr`, `Wo` the two weight matrices (stored output-feature-major) and `b` the bias,
      layer(r, j) = act( Σₖ A(r,k)·Wr(j,k) + Σₖ X(r,k)·Wo(j,k) + b(j) ),
  where `act z` is `z` for `z ≥ 0` and the slope word times `z` otherwise.  The network's last step is the linear
  read-out of the second layer's 64 features: Σₖ layer(r,k)·wl(k) + bl.  Both are stated for any number of rows, so
  that the same function describes one tile of rows and the whole array.
-/
import Idealize.ShloMosaic.PureOps.Ideal.Laws
import Idealize.ShloMosaic.Lib.ValueIdx

noncomputable section

namespace Cert.GraphConv

open Idealize.ShloMosaic Idealize.ShloMosaic.ValueIdx

/-- The activation applied entry by entry: the entry itself where it is at least zero, the slope word times the
    entry elsewhere. -/
def act (z : Ideal .f32) : Ideal .f32 :=
  Scalar.select (FloatOps.cmpf (F := Ideal) .oge z (Ideal.ofBits .f32 0x00000000#32)) z (Ideal.ofBits .f32 0x3C23D70A#32 * z)

/-- One layer at row `r`, output feature `j`: the neighbour term, then the node's own term, then the bias, activated. -/
def layerAt {a : ℕ} (A X : (⟨2, ![a, 64]⟩ : Shape).Idx → Ideal .f32) (Wr Wo : (⟨2, ![64, 64]⟩ : Shape).Idx → Ideal .f32)
    (b : Fin 64 → Ideal .f32) (r : Fin a) (j : Fin 64) : Ideal .f32 :=
  act ((∑ k : Fin 64, A (ix2 r k) * Wr (ix2 j k)) + (∑ k : Fin 64, X (ix2 r k) * Wo (ix2 j k)) + b j)

/-- The read-out of a layer at row `r`: its 64 features against the read-out weights, plus the read-out bias. -/
def headAt {a : ℕ} (A H : (⟨2, ![a, 64]⟩ : Shape).Idx → Ideal .f32) (Wr Wo : (⟨2, ![64, 64]⟩ : Shape).Idx → Ideal .f32)
    (b wl : Fin 64 → Ideal .f32) (bl : Ideal .f32) (r : Fin a) : Ideal .f32 :=
  (∑ k : Fin 64, layerAt A H Wr Wo b r k * wl k) + bl

end Cert.GraphConv

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.KernelBody.lean ====
/-
  What the two kernel bodies store, read at an entry.

  The first body stores, for a tile of 10000 rows, the layer of `Layer.lean` of the tile's rows: two products of the
  tile with a transposed weight matrix (each a plain sum over the 64 input features), their sum, the bias row spread
  down the rows, and the activation.  The second body computes the same layer and then its read-out: the 64 features
  of a row times the read-out weights, summed along the row, plus the read-out bias.
-/
import proofs.«167857_j58153857188393_1_alg».proof.Proof.Gen.KernelIdeal.Skeleton
import proofs.«167857_j58153857188393_1_alg».proof.Proof.Layer
import proofs.«167857_j58153857188393_1_alg».proof.Proof.LibRowMatmul
import proofs.«167857_j58153857188393_1_alg».proof.Proof.LibColumnForms
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GraphConv

/-- The product's kept left coordinate is the output's row. -/
theorem dot_lhs0 (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The product's kept right coordinate is the output's column. -/
theorem dot_rhs1 (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile times a transposed weight matrix, into the zero accumulator: entry `(r, j)` is the sum over the input
    features `k` of the tile at `(r, k)` times the weight matrix at `(j, k)`. -/
theorem tile_times_transposed (T : FVec Ideal S10000x64 .bf16) (W : FVec Ideal S64x64 .bf16) (r : Fin 10000) (j : Fin 64) :
    matmul dot_S10000x64_S64x64_S10000x64_1_0_0_1_n_n none T (transpose S64x64 [1, 0] W transposes_S64x64_p1_0_S64x64) (constant S10000x64 .f32 0x00000000#32) (ix2 r j)
      = ∑ k : Fin 64, T (ix2 r k) * W (ix2 j k) := by
  refine (Cert.Lib.RowMatmul.matmul_cols_apply dot_S10000x64_S64x64_S10000x64_1_0_0_1_n_n rfl rfl rfl rfl dot_lhs0 dot_rhs1 none T _ r j).trans ?_
  refine Finset.sum_congr rfl fun k _ => ?_
  rw [transpose_ix2_apply]

/-- The layer of a tile as both bodies compute it (a vector's cast to its own shape left out): the two products, their
    sum, the bias row spread down the rows, the activation. -/
def tileLayer (x0 x1 : FVec Ideal S10000x64 .f32) (x2 x4 : FVec Ideal S64x64 .f32) (x3 : FVec Ideal S1x64 .f32) :
    FVec Ideal S10000x64 .f32 :=
  select
    (cmpf .oge
      (addf
        (addf
          (matmul dot_S10000x64_S64x64_S10000x64_1_0_0_1_n_n none (truncf .bf16 x0 bitsLt_bf16_f32)
            (transpose S64x64 [1, 0] (truncf .bf16 x2 bitsLt_bf16_f32) transposes_S64x64_p1_0_S64x64) (constant S10000x64 .f32 0x00000000#32))
          (matmul dot_S10000x64_S64x64_S10000x64_1_0_0_1_n_n none (truncf .bf16 x1 bitsLt_bf16_f32)
            (transpose S64x64 [1, 0] (truncf .bf16 x4 bitsLt_bf16_f32) transposes_S64x64_p1_0_S64x64) (constant S10000x64 .f32 0x00000000#32)))
        (broadcastTo S10000x64 x3 broadcasts_S1x64_S10000x64))
      (broadcast S10000x64 (Scalar.ofBits .f32 0x00000000#32)))
    (addf
      (addf
        (matmul dot_S10000x64_S64x64_S10000x64_1_0_0_1_n_n none (truncf .bf16 x0 bitsLt_bf16_f32)
          (transpose S64x64 [1, 0] (truncf .bf16 x2 bitsLt_bf16_f32) transposes_S64x64_p1_0_S64x64) (constant S10000x64 .f32 0x00000000#32))
        (matmul dot_S10000x64_S64x64_S10000x64_1_0_0_1_n_n none (truncf .bf16 x1 bitsLt_bf16_f32)
          (transpose S64x64 [1, 0] (truncf .bf16 x4 bitsLt_bf16_f32) transposes_S64x64_p1_0_S64x64) (constant S10000x64 .f32 0x00000000#32)))
      (broadcastTo S10000x64 x3 broadcasts_S1x64_S10000x64))
    (mulf (broadcast S10000x64 (Scalar.ofBits .f32 0x3C23D70A#32))
      (addf
        (addf
          (matmul dot_S10000x64_S64x64_S10000x64_1_0_0_1_n_n none (truncf .bf16 x0 bitsLt_bf16_f32)
            (transpose S64x64 [1, 0] (truncf .bf16 x2 bitsLt_bf16_f32) transposes_S64x64_p1_0_S64x64) (constant S10000x64 .f32 0x00000000#32))
          (matmul dot_S10000x64_S64x64_S10000x64_1_0_0_1_n_n none (truncf .bf16 x1 bitsLt_bf16_f32)
            (transpose S64x64 [1, 0] (truncf .bf16 x4 bitsLt_bf16_f32) transposes_S64x64_p1_0_S64x64) (constant S10000x64 .f32 0x00000000#32)))
        (broadcastTo S10000x64 x3 broadcasts_S1x64_S10000x64)))

/-- The tile's layer at row `r` of the tile and output feature `j` is the layer of `Layer.lean` of the tile's rows. -/
theorem tileLayer_apply (x0 x1 : FVec Ideal S10000x64 .f32) (x2 x4 : FVec Ideal S64x64 .f32) (x3 : FVec Ideal S1x64 .f32)
    (r : Fin 10000) (j : Fin 64) :
    tileLayer x0 x1 x2 x4 x3 (ix2 r j) = layerAt x0 x1 x2 x4 (fun q => x3 (ix2 0 q)) r j := by
  unfold tileLayer layerAt act
  simp only [select_apply, cmpf_apply, mulf_apply, addf_apply, broadcast_apply, truncf_apply, broadcastTo_1b_ab_apply]
  rw [tile_times_transposed (truncf .bf16 x0 bitsLt_bf16_f32) (truncf .bf16 x2 bitsLt_bf16_f32) r j,
    tile_times_transposed (truncf .bf16 x1 bitsLt_bf16_f32) (truncf .bf16 x4 bitsLt_bf16_f32) r j]
  rfl

/-- The first body stores the tile's layer. -/
theorem conv_payload_eq (x0 x1 : Vec Ideal S10000x64 .f32) (x2 x4 : Vec Ideal S64x64 .f32) (x3 : Vec Ideal S1x64 .f32) :
    k0_pay1 (F := Ideal) x0 x1 x2 x4 x3 = tileLayer x0 x1 x2 x4 x3 := by
  unfold k0_pay1 tileLayer
  dsimp only
  simp only [shapeCast_self]

/-- The second body stores the tile's layer times the read-out weights, summed along each row and laid out as a
    column, plus the read-out bias spread down the column. -/
theorem final_payload_eq (x0 x1 : Vec Ideal S10000x64 .f32) (x2 x4 : Vec Ideal S64x64 .f32) (x3 x5 : Vec Ideal S1x64 .f32)
    (x6 : Vec Ideal S1x1 .f32) :
    k1_pay1 (F := Ideal) x0 x1 x2 x4 x3 x5 x6
      = addf (shapeCast S10000x1
            (multiReduction .add [1] S10000 (mulf (tileLayer x0 x1 x2 x4 x3) (broadcastTo S10000x64 x5 broadcasts_S1x64_S10000x64))
              0x00000000#32 reduces_S10000x64_S10000 (.inl rfl) rfl) shapeCasts_S10000_S10000x1)
          (broadcastTo S10000x1 x6 broadcasts_S1x1_S10000x1) := by
  unfold k1_pay1 tileLayer
  dsimp only
  simp only [shapeCast_self]

/-- The first body's stored value at row `r` of the tile and output feature `j`. -/
theorem conv_payload_apply (x0 x1 : Vec Ideal S10000x64 .f32) (x2 x4 : Vec Ideal S64x64 .f32) (x3 : Vec Ideal S1x64 .f32)
    (r : Fin 10000) (j : Fin 64) :
    k0_pay1 (F := Ideal) x0 x1 x2 x4 x3 (ix2 r j) = layerAt x0 x1 x2 x4 (fun q => x3 (ix2 0 q)) r j := by
  rw [conv_payload_eq]
  exact tileLayer_apply x0 x1 x2 x4 x3 r j

/-- The second body's stored value at row `r` of the tile (its one column): the read-out of the layer of the tile's
    rows — the row's 64 activated features times the read-out weights, summed along the row, plus the read-out bias. -/
theorem final_payload_apply (x0 x1 : Vec Ideal S10000x64 .f32) (x2 x4 : Vec Ideal S64x64 .f32) (x3 x5 : Vec Ideal S1x64 .f32)
    (x6 : Vec Ideal S1x1 .f32) (r : Fin 10000) (u : Fin 1) :
    k1_pay1 (F := Ideal) x0 x1 x2 x4 x3 x5 x6 (ix2 r u)
      = headAt x0 x1 x2 x4 (fun q => x3 (ix2 0 q)) (fun q => x5 (ix2 0 q)) (x6 (ix2 0 0)) r := by
  rw [final_payload_eq]
  unfold headAt
  rw [addf_apply]
  refine congrArg₂ (· + ·) ?_ ?_
  · refine (Cert.Lib.ColumnForms.shapeCast_a_a1_apply _ shapeCasts_S10000_S10000x1 r u).trans ?_
    refine (Cert.Lib.ColumnForms.rowSum_apply _ 0x00000000#32 reduces_S10000x64_S10000 (.inl rfl) rfl r).trans ?_
    refine Finset.sum_congr rfl fun k _ => ?_
    rw [mulf_apply, broadcastTo_1b_ab_apply]
    exact congrArg (· * x5 (ix2 0 k)) (tileLayer_apply x0 x1 x2 x4 x3 r k)
  · rw [broadcastTo_1b_ab_apply]
    have hu : u = 0 := Fin.ext (by omega)
    rw [hu]

end Cert.KernelIdeal.Body

end
-- ==== Proof.KernelArrays.lean ====
/-
  From tiles to arrays.

  Each kernel visits ten tiles of 10000 rows; at tile `t` it reads rows `10000·t … 10000·t + 9999` of its two
  row-tiled operands and the whole of its small operands, and writes back rows `10000·t … 10000·t + 9999` of its
  output.  The tiles' row ranges partition the 100000 rows, so the output array ends holding, at every row, what the
  tile covering that row wrote: the layer (first kernel) or the layer's read-out (second kernel) of the operand arrays
  as the kernel found them.
-/
import proofs.«167857_j58153857188393_1_alg».proof.Proof.Gen.KernelIdeal.Frame
import proofs.«167857_j58153857188393_1_alg».proof.Proof.KernelBody

set_option maxRecDepth 16384

noncomputable section

namespace Cert.KernelIdeal.Arrays

open Cert.KernelIdeal Cert.KernelIdeal.Gen Cert.KernelIdeal.Body Cert.GraphConv
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The first layer over whole arrays: entry `i` is the layer at row `i 0`, feature `i 1`; the bias is a one-row array. -/
def layerArr (A X : S100000x64.Idx → Ideal .f32) (Wr Wo : S64x64.Idx → Ideal .f32) (b : S1x64.Idx → Ideal .f32) :
    S100000x64.Idx → Ideal .f32 :=
  fun i => layerAt (a := 100000) A X Wr Wo (fun q => b (ix2 0 q)) (i 0) (i 1)

/-- The read-out of the second layer over whole arrays: a one-column array. -/
def headArr (A H : S100000x64.Idx → Ideal .f32) (Wr Wo : S64x64.Idx → Ideal .f32) (b wl : S1x64.Idx → Ideal .f32)
    (bl : S1x1.Idx → Ideal .f32) : S100000x1.Idx → Ideal .f32 :=
  fun i => headAt (a := 100000) A H Wr Wo (fun q => b (ix2 0 q)) (fun q => wl (ix2 0 q)) (bl (ix2 0 0)) (i 0)

/-- A tile's layer is the arrays' layer at the tile's rows: tile `n` holds rows `10000·n + p`. -/
theorem tile_layer (A X : S100000x64.Idx → Ideal .f32) (Wr Wo : S64x64.Idx → Ideal .f32) (b : S1x64.Idx → Ideal .f32)
    (x0 x1 : Vec Ideal S10000x64 .f32) (x2 x4 : Vec Ideal S64x64 .f32) (x3 : Vec Ideal S1x64 .f32) (n : Nat) (hn : n < 10)
    (h0 : ∀ (p : Fin 10000) (k : Fin 64), x0 (ix2 p k) = A (ix2 (⟨n * 10000 + p.val, by omega⟩ : Fin 100000) k))
    (h1 : ∀ (p : Fin 10000) (k : Fin 64), x1 (ix2 p k) = X (ix2 (⟨n * 10000 + p.val, by omega⟩ : Fin 100000) k))
    (h2 : x2 = Wr) (h4 : x4 = Wo) (h3 : x3 = b) (p : Fin 10000) (q : Fin 64) :
    k0_pay1 (F := Ideal) x0 x1 x2 x4 x3 (ix2 p q)
      = layerAt (a := 100000) A X Wr Wo (fun q => b (ix2 0 q)) (⟨n * 10000 + p.val, by omega⟩ : Fin 100000) q := by
  subst h2 h4 h3
  rw [conv_payload_apply]
  unfold layerAt
  simp only [h0, h1]

section Region0

variable (V : (c : Dev nD) → (b : Ref sig .tc) → Buf (Elt Ideal) ((c : Thread nD τ).loc b))

/-- The printed index maps over the ten tiles: the row-tiled windows sit at tile `t`, the small ones at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Tile `t` of row-tiled operand 0: its row `p` is the array's row `10000·t + p`. -/
theorem blk0_0 (c : Dev nD) (t : Fin cfg0.N) (ht : t.val < 10) (p : Fin 10000) (k : Fin 64) :
    iblk0 V c 0 t (ix2 p k) = V c main_v16 (ix2 (⟨t.val * 10000 + p.val, by omega⟩ : Fin 100000) k) := by
  obtain ⟨e00, e01, e10, e11, e20, e21, e30, e31, e40, e41, e50, e51⟩ := idx0 t
  show V c main_v16 (((cfg0.win 0).blk t).view.emb (ix2 p k)) = _
  refine congrArg (V c main_v16) ?_
  funext a; apply Fin.ext
  match a with
  | ⟨0, _⟩ => show win0_0.index t (0 : Fin 2) * 10000 + 1 * p.val = t.val * 10000 + p.val; rw [e00]; omega
  | ⟨1, _⟩ => show win0_0.index t (1 : Fin 2) * 64 + 1 * k.val = k.val; rw [e01]; omega

/-- Tile `t` of row-tiled operand 1: its row `p` is the array's row `10000·t + p`. -/
theorem blk0_1 (c : Dev nD) (t : Fin cfg0.N) (ht : t.val < 10) (p : Fin 10000) (k : Fin 64) :
    iblk0 V c 1 t (ix2 p k) = V c main_arg0 (ix2 (⟨t.val * 10000 + p.val, by omega⟩ : Fin 100000) k) := by
  obtain ⟨e00, e01, e10, e11, e20, e21, e30, e31, e40, e41, e50, e51⟩ := idx0 t
  show V c main_arg0 (((cfg0.win 1).blk t).view.emb (ix2 p k)) = _
  refine congrArg (V c main_arg0) ?_
  funext a; apply Fin.ext
  match a with
  | ⟨0, _⟩ => show win0_1.index t (0 : Fin 2) * 10000 + 1 * p.val = t.val * 10000 + p.val; rw [e10]; omega
  | ⟨1, _⟩ => show win0_1.index t (1 : Fin 2) * 64 + 1 * k.val = k.val; rw [e11]; omega

/-- Operand 2 is not tiled: every tile reads the whole array. -/
theorem blk0_2 (c : Dev nD) (t : Fin cfg0.N) : iblk0 V c 2 t = V c main_arg3 := by
  obtain ⟨e00, e01, e10, e11, e20, e21, e30, e31, e40, e41, e50, e51⟩ := idx0 t
  funext y
  show V c main_arg3 (((cfg0.win 2).blk t).view.emb y) = V c main_arg3 y
  refine congrArg (V c main_arg3) ?_
  funext a; apply Fin.ext
  match a with
  | ⟨0, _⟩ => show win0_2.index t (0 : Fin 2) * 64 + 1 * (y 0).val = (y 0).val; rw [e20]; omega
  | ⟨1, _⟩ => show win0_2.index t (1 : Fin 2) * 64 + 1 * (y 1).val = (y 1).val; rw [e21]; omega

/-- Operand 3 is not tiled: every tile reads the whole array. -/
theorem blk0_3 (c : Dev nD) (t : Fin cfg0.N) : iblk0 V c 3 t = V c main_v17 := by
  obtain ⟨e00, e01, e10, e11, e20, e21, e30, e31, e40, e41, e50, e51⟩ := idx0 t
  funext y
  show V c main_v17 (((cfg0.win 3).blk t).view.emb y) = V c main_v17 y
  refine congrArg (V c main_v17) ?_
  funext a; apply Fin.ext
  match a with
  | ⟨0, _⟩ => show win0_3.index t (0 : Fin 2) * 1 + 1 * (y 0).val = (y 0).val; rw [e30]; omega
  | ⟨1, _⟩ => show win0_3.index t (1 : Fin 2) * 64 + 1 * (y 1).val = (y 1).val; rw [e31]; omega

/-- Operand 4 is not tiled: every tile reads the whole array. -/
theorem blk0_4 (c : Dev nD) (t : Fin cfg0.N) : iblk0 V c 4 t = V c main_arg5 := by
  obtain ⟨e00, e01, e10, e11, e20, e21, e30, e31, e40, e41, e50, e51⟩ := idx0 t
  funext y
  show V c main_arg5 (((cfg0.win 4).blk t).view.emb y) = V c main_arg5 y
  refine congrArg (V c main_arg5) ?_
  funext a; apply Fin.ext
  match a with
  | ⟨0, _⟩ => show win0_4.index t (0 : Fin 2) * 64 + 1 * (y 0).val = (y 0).val; rw [e40]; omega
  | ⟨1, _⟩ => show win0_4.index t (1 : Fin 2) * 64 + 1 * (y 1).val = (y 1).val; rw [e41]; omega

/-- What tile `t` writes back is the rows of the arrays' layer under tile `t`. -/
theorem flushed0_eq (c : Dev nD) (t : Fin cfg0.N) :
    (dat0 V c).flushed 5 t = ((cfg0.win 5).blk t).view.read (Elt Ideal)
      (layerArr (V c main_v16) (V c main_arg0) (V c main_arg3) (V c main_arg5) (V c main_v17)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51⟩ := idx0 t
  have ht : t.val < 10 := by have := t.isLt; have hN : cfg0.N = 10 := N_0; omega
  funext j
  have hp : (j 0).val < 10000 := (j 0).isLt
  have hq : (j 1).val < 64 := (j 1).isLt
  have hx : (cfg0.win 5).xinj (grid0.coords t) j = ix2 (⟨(j 0).val, hp⟩ : Fin 10000) (⟨(j 1).val, hq⟩ : Fin 64) :=
    funext fun a => Fin.ext (by match a with | ⟨0, _⟩ => rfl | ⟨1, _⟩ => rfl)
  have hr0 : (((cfg0.win 5).blk t).view.emb j) 0 = (⟨t.val * 10000 + (j 0).val, by omega⟩ : Fin 100000) := Fin.ext (by
    show win0_5.index t (0 : Fin 2) * 10000 + 1 * (j 0).val = t.val * 10000 + (j 0).val; rw [e50]; omega)
  have hr1 : (((cfg0.win 5).blk t).view.emb j) 1 = (⟨(j 1).val, hq⟩ : Fin 64) := Fin.ext (by
    show win0_5.index t (1 : Fin 2) * 64 + 1 * (j 1).val = (j 1).val; rw [e51]; omega)
  show k0_pay1 (F := Ideal) (iblk0 V c 0 t) (iblk0 V c 1 t) (iblk0 V c 2 t) (iblk0 V c 4 t) (iblk0 V c 3 t)
      ((cfg0.win 5).xinj (grid0.coords t) j)
    = layerAt (a := 100000) (V c main_v16) (V c main_arg0) (V c main_arg3) (V c main_arg5) (fun q => V c main_v17 (ix2 0 q))
      ((((cfg0.win 5).blk t).view.emb j) 0) ((((cfg0.win 5).blk t).view.emb j) 1)
  rw [hx, hr0, hr1]
  exact tile_layer (V c main_v16) (V c main_arg0) (V c main_arg3) (V c main_arg5) (V c main_v17)
    (iblk0 V c 0 t) (iblk0 V c 1 t) (iblk0 V c 2 t) (iblk0 V c 4 t) (iblk0 V c 3 t) t.val ht
    (fun p k => blk0_0 V c t ht p k) (fun p k => blk0_1 V c t ht p k) (blk0_2 V c t) (blk0_4 V c t) (blk0_3 V c t)
    (⟨(j 0).val, hp⟩ : Fin 10000) (⟨(j 1).val, hq⟩ : Fin 64)

/-- An entry of the output array lies in tile `t`'s rows iff each coordinate is in the tile's range. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v18).slice (win0_5.rect t)).set ↔ _
  rw [View.set_slice_whole, Rect.mem_set_unit]
  exact Iff.rfl

/-- Every row is in some tile: row `r` is in tile `r / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  refine ⟨⟨(i 0).val / 10000, by omega⟩, flush0_5 _, ?_⟩
  obtain ⟨e00, e01, e10, e11, e20, e21, e30, e31, e40, e41, e50, e51⟩ := idx0 ⟨(i 0).val / 10000, by omega⟩
  rw [mem_blk0]
  intro a
  match a with
  | ⟨0, _⟩ =>
    show win0_5.index _ (0 : Fin 2) * 10000 ≤ (i 0).val ∧ (i 0).val < win0_5.index _ (0 : Fin 2) * 10000 + 10000
    rw [e50]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [e51]; omega

/-- THE FIRST KERNEL'S OUTPUT ARRAY: the layer of the arrays it was entered with, at every node and feature. -/
theorem layer_array (c : Dev nD) :
    (dat0 V c).arrAt 5 cfg0.N = layerArr (V c main_v16) (V c main_arg0) (V c main_arg3) (V c main_arg5) (V c main_v17) :=
  (dat0 V c).arrAt_eq_of_cover 5 _ (fun t _ => flushed0_eq V c t) (cover0)

end Region0

/-- A tile's read-out is the arrays' read-out at the tile's rows. -/
theorem tile_head (A H : S100000x64.Idx → Ideal .f32) (Wr Wo : S64x64.Idx → Ideal .f32) (b wl : S1x64.Idx → Ideal .f32)
    (bl : S1x1.Idx → Ideal .f32)
    (x0 x1 : Vec Ideal S10000x64 .f32) (x2 x4 : Vec Ideal S64x64 .f32) (x3 x5 : Vec Ideal S1x64 .f32) (x6 : Vec Ideal S1x1 .f32)
    (n : Nat) (hn : n < 10)
    (h0 : ∀ (p : Fin 10000) (k : Fin 64), x0 (ix2 p k) = A (ix2 (⟨n * 10000 + p.val, by omega⟩ : Fin 100000) k))
    (h1 : ∀ (p : Fin 10000) (k : Fin 64), x1 (ix2 p k) = H (ix2 (⟨n * 10000 + p.val, by omega⟩ : Fin 100000) k))
    (h2 : x2 = Wr) (h4 : x4 = Wo) (h3 : x3 = b) (h5 : x5 = wl) (h6 : x6 = bl) (p : Fin 10000) (u : Fin 1) :
    k1_pay1 (F := Ideal) x0 x1 x2 x4 x3 x5 x6 (ix2 p u)
      = headAt (a := 100000) A H Wr Wo (fun q => b (ix2 0 q)) (fun q => wl (ix2 0 q)) (bl (ix2 0 0))
          (⟨n * 10000 + p.val, by omega⟩ : Fin 100000) := by
  subst h2 h4 h3 h5 h6
  rw [final_payload_apply]
  unfold headAt layerAt
  simp only [h0, h1]

section Region1

variable (V : (c : Dev nD) → (b : Ref sig .tc) → Buf (Elt Ideal) ((c : Thread nD τ).loc b))

/-- The printed index maps over the ten tiles: the row-tiled windows sit at tile `t`, the small ones at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Tile `t` of row-tiled operand 0: its row `p` is the array's row `10000·t + p`. -/
theorem blk1_0 (c : Dev nD) (t : Fin cfg1.N) (ht : t.val < 10) (p : Fin 10000) (k : Fin 64) :
    iblk1 V c 0 t (ix2 p k) = V c main_v28 (ix2 (⟨t.val * 10000 + p.val, by omega⟩ : Fin 100000) k) := by
  obtain ⟨e00, e01, e10, e11, e20, e21, e30, e31, e40, e41, e50, e51, e60, e61, e70, e71⟩ := idx1 t
  show V c main_v28 (((cfg1.win 0).blk t).view.emb (ix2 p k)) = _
  refine congrArg (V c main_v28) ?_
  funext a; apply Fin.ext
  match a with
  | ⟨0, _⟩ => show win1_0.index t (0 : Fin 2) * 10000 + 1 * p.val = t.val * 10000 + p.val; rw [e00]; omega
  | ⟨1, _⟩ => show win1_0.index t (1 : Fin 2) * 64 + 1 * k.val = k.val; rw [e01]; omega

/-- Tile `t` of row-tiled operand 1: its row `p` is the array's row `10000·t + p`. -/
theorem blk1_1 (c : Dev nD) (t : Fin cfg1.N) (ht : t.val < 10) (p : Fin 10000) (k : Fin 64) :
    iblk1 V c 1 t (ix2 p k) = V c main_v18 (ix2 (⟨t.val * 10000 + p.val, by omega⟩ : Fin 100000) k) := by
  obtain ⟨e00, e01, e10, e11, e20, e21, e30, e31, e40, e41, e50, e51, e60, e61, e70, e71⟩ := idx1 t
  show V c main_v18 (((cfg1.win 1).blk t).view.emb (ix2 p k)) = _
  refine congrArg (V c main_v18) ?_
  funext a; apply Fin.ext
  match a with
  | ⟨0, _⟩ => show win1_1.index t (0 : Fin 2) * 10000 + 1 * p.val = t.val * 10000 + p.val; rw [e10]; omega
  | ⟨1, _⟩ => show win1_1.index t (1 : Fin 2) * 64 + 1 * k.val = k.val; rw [e11]; omega

/-- Operand 2 is not tiled: every tile reads the whole array. -/
theorem blk1_2 (c : Dev nD) (t : Fin cfg1.N) : iblk1 V c 2 t = V c main_arg6 := by
  obtain ⟨e00, e01, e10, e11, e20, e21, e30, e31, e40, e41, e50, e51, e60, e61, e70, e71⟩ := idx1 t
  funext y
  show V c main_arg6 (((cfg1.win 2).blk t).view.emb y) = V c main_arg6 y
  refine congrArg (V c main_arg6) ?_
  funext a; apply Fin.ext
  match a with
  | ⟨0, _⟩ => show win1_2.index t (0 : Fin 2) * 64 + 1 * (y 0).val = (y 0).val; rw [e20]; omega
  | ⟨1, _⟩ => show win1_2.index t (1 : Fin 2) * 64 + 1 * (y 1).val = (y 1).val; rw [e21]; omega

/-- Operand 3 is not tiled: every tile reads the whole array. -/
theorem blk1_3 (c : Dev nD) (t : Fin cfg1.N) : iblk1 V c 3 t = V c main_v29 := by
  obtain ⟨e00, e01, e10, e11, e20, e21, e30, e31, e40, e41, e50, e51, e60, e61, e70, e71⟩ := idx1 t
  funext y
  show V c main_v29 (((cfg1.win 3).blk t).view.emb y) = V c main_v29 y
  refine congrArg (V c main_v29) ?_
  funext a; apply Fin.ext
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- Operand 4 is not tiled: every tile reads the whole array. -/
theorem blk1_4 (c : Dev nD) (t : Fin cfg1.N) : iblk1 V c 4 t = V c main_arg8 := by
  obtain ⟨e00, e01, e10, e11, e20, e21, e30, e31, e40, e41, e50, e51, e60, e61, e70, e71⟩ := idx1 t
  funext y
  show V c main_arg8 (((cfg1.win 4).blk t).view.emb y) = V c main_arg8 y
  refine congrArg (V c main_arg8) ?_
  funext a; apply Fin.ext
  match a with
  | ⟨0, _⟩ => show win1_4.index t (0 : Fin 2) * 64 + 1 * (y 0).val = (y 0).val; rw [e40]; omega
  | ⟨1, _⟩ => show win1_4.index t (1 : Fin 2) * 64 + 1 * (y 1).val = (y 1).val; rw [e41]; omega

/-- Operand 5 is not tiled: every tile reads the whole array. -/
theorem blk1_5 (c : Dev nD) (t : Fin cfg1.N) : iblk1 V c 5 t = V c main_arg9 := by
  obtain ⟨e00, e01, e10, e11, e20, e21, e30, e31, e40, e41, e50, e51, e60, e61, e70, e71⟩ := idx1 t
  funext y
  show V c main_arg9 (((cfg1.win 5).blk t).view.emb y) = V c main_arg9 y
  refine congrArg (V c main_arg9) ?_
  funext a; apply Fin.ext
  match a with
  | ⟨0, _⟩ => show win1_5.index t (0 : Fin 2) * 1 + 1 * (y 0).val = (y 0).val; rw [e50]; omega
  | ⟨1, _⟩ => show win1_5.index t (1 : Fin 2) * 64 + 1 * (y 1).val = (y 1).val; rw [e51]; omega

/-- Operand 6 is not tiled: every tile reads the whole array. -/
theorem blk1_6 (c : Dev nD) (t : Fin cfg1.N) : iblk1 V c 6 t = V c main_v30 := by
  obtain ⟨e00, e01, e10, e11, e20, e21, e30, e31, e40, e41, e50, e51, e60, e61, e70, e71⟩ := idx1 t
  funext y
  show V c main_v30 (((cfg1.win 6).blk t).view.emb y) = V c main_v30 y
  refine congrArg (V c main_v30) ?_
  funext a; apply Fin.ext
  match a with
  | ⟨0, _⟩ => show win1_6.index t (0 : Fin 2) * 1 + 1 * (y 0).val = (y 0).val; rw [e60]; omega
  | ⟨1, _⟩ => show win1_6.index t (1 : Fin 2) * 1 + 1 * (y 1).val = (y 1).val; rw [e61]; omega

/-- What tile `t` writes back is the rows of the arrays' read-out under tile `t`. -/
theorem flushed1_eq (c : Dev nD) (t : Fin cfg1.N) :
    (dat1 V c).flushed 7 t = ((cfg1.win 7).blk t).view.read (Elt Ideal)
      (headArr (V c main_v28) (V c main_v18) (V c main_arg6) (V c main_arg8) (V c main_v29) (V c main_arg9) (V c main_v30)) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz,
    View.ld_unit_zero (S := S1x1) hz]
  obtain ⟨e00, e01, e10, e11, e20, e21, e30, e31, e40, e41, e50, e51, e60, e61, e70, e71⟩ := idx1 t
  have ht : t.val < 10 := by have := t.isLt; have hN : cfg1.N = 10 := N_1; omega
  funext j
  have hp : (j 0).val < 10000 := (j 0).isLt
  have hq : (j 1).val < 1 := (j 1).isLt
  have hx : (cfg1.win 7).xinj (grid1.coords t) j = ix2 (⟨(j 0).val, hp⟩ : Fin 10000) (⟨(j 1).val, hq⟩ : Fin 1) :=
    funext fun a => Fin.ext (by match a with | ⟨0, _⟩ => rfl | ⟨1, _⟩ => rfl)
  have hr0 : (((cfg1.win 7).blk t).view.emb j) 0 = (⟨t.val * 10000 + (j 0).val, by omega⟩ : Fin 100000) := Fin.ext (by
    show win1_7.index t (0 : Fin 2) * 10000 + 1 * (j 0).val = t.val * 10000 + (j 0).val; rw [e70]; omega)
  show k1_pay1 (F := Ideal) (iblk1 V c 0 t) (iblk1 V c 1 t) (iblk1 V c 2 t) (iblk1 V c 4 t) (iblk1 V c 3 t) (iblk1 V c 5 t)
      (iblk1 V c 6 t) ((cfg1.win 7).xinj (grid1.coords t) j)
    = headAt (a := 100000) (V c main_v28) (V c main_v18) (V c main_arg6) (V c main_arg8) (fun q => V c main_v29 (ix2 0 q))
      (fun q => V c main_arg9 (ix2 0 q)) (V c main_v30 (ix2 0 0)) ((((cfg1.win 7).blk t).view.emb j) 0)
  rw [hx, hr0]
  exact tile_head (V c main_v28) (V c main_v18) (V c main_arg6) (V c main_arg8) (V c main_v29) (V c main_arg9) (V c main_v30)
    (iblk1 V c 0 t) (iblk1 V c 1 t) (iblk1 V c 2 t) (iblk1 V c 4 t) (iblk1 V c 3 t) (iblk1 V c 5 t) (iblk1 V c 6 t) t.val ht
    (fun p k => blk1_0 V c t ht p k) (fun p k => blk1_1 V c t ht p k) (blk1_2 V c t) (blk1_4 V c t) (blk1_3 V c t)
    (blk1_5 V c t) (blk1_6 V c t) (⟨(j 0).val, hp⟩ : Fin 10000) (⟨(j 1).val, hq⟩ : Fin 1)

/-- An entry of the output column lies in tile `t`'s rows iff each coordinate is in the tile's range. -/
theorem mem_blk1 (t : Fin cfg1.N) (i : S100000x1.Idx) :
    i ∈ ((cfg1.win 7).blk t).view.set ↔ ∀ a : Fin 2, win1_7.index t a * S10000x1.size a ≤ (i a).val ∧ (i a).val < win1_7.index t a * S10000x1.size a + S10000x1.size a := by
  show i ∈ ((View.whole main_v31).slice (win1_7.rect t)).set ↔ _
  rw [View.set_slice_whole, Rect.mem_set_unit]
  exact Iff.rfl

/-- Every row is in some tile: row `r` is in tile `r / 10000`. -/
theorem cover1 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 10 := N_1
  refine ⟨⟨(i 0).val / 10000, by omega⟩, flush1_7 _, ?_⟩
  obtain ⟨e00, e01, e10, e11, e20, e21, e30, e31, e40, e41, e50, e51, e60, e61, e70, e71⟩ := idx1 ⟨(i 0).val / 10000, by omega⟩
  rw [mem_blk1]
  intro a
  match a with
  | ⟨0, _⟩ =>
    show win1_7.index _ (0 : Fin 2) * 10000 ≤ (i 0).val ∧ (i 0).val < win1_7.index _ (0 : Fin 2) * 10000 + 10000
    rw [e70]; show (i 0).val / 10000 * 10000 ≤ (i 0).val ∧ (i 0).val < (i 0).val / 10000 * 10000 + 10000; omega
  | ⟨1, _⟩ =>
    show win1_7.index _ (1 : Fin 2) * 1 ≤ (i 1).val ∧ (i 1).val < win1_7.index _ (1 : Fin 2) * 1 + 1
    rw [e71]; omega

/-- THE SECOND KERNEL'S OUTPUT ARRAY: the read-out of the layer of the arrays it was entered with, at every node. -/
theorem head_array (c : Dev nD) :
    (dat1 V c).arrAt 7 cfg1.N
      = headArr (V c main_v28) (V c main_v18) (V c main_arg6) (V c main_arg8) (V c main_v29) (V c main_arg9) (V c main_v30) :=
  (dat1 V c).arrAt_eq_of_cover 7 _ (fun t _ => flushed1_eq V c t) (cover1)

end Region1

end Cert.KernelIdeal.Arrays

end
-- ==== Proof.KernelHost.lean ====
/-
  What the two kernels are entered with.

  Before the first kernel the host builds the first aggregation: it takes the edges' source and target rows out of the
  edge list (a negative source index counted from the end), gathers the source nodes' feature rows, scales each by its
  edge weight, and adds the scaled rows into a zero table at the target nodes.  Between the kernels it builds the
  second aggregation the same way, unweighted, from the first kernel's output.  The biases are handed to the kernels
  as one-row arrays.  Every other operand is an argument array, which no host operation and no kernel writes.
-/
import proofs.«167857_j58153857188393_1_alg».proof.Proof.Gen.KernelIdeal.Frame

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The edges' target nodes, as a column. -/
def dstCol (ei : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] ei slices_S2x1600000_S1x1600000_1_0) shapeCasts_S1x1600000_S1600000)

/-- The edges' source nodes, as a column; a negative index counts from the end of the node table. -/
def srcCol (ei : (⟨S2x1600000, .i32⟩ : BufTy).Contents (Elt F)) : (⟨S1600000x1, .i32⟩ : BufTy).Contents (Elt F) :=
  broadcastInDim S1600000x1 ![0] bcast_S1600000_S1600000x1_0
    (select
      (cmpi .slt (shapeCast _ (extractStridedSlice S1x1600000 ![0, 0] ei slices_S2x1600000_S1x1600000_0_0) shapeCasts_S1x1600000_S1600000)
        (broadcastInDim S1600000 ![] bcast_S_S1600000 (constantI S_ 32 0#32)))
      (addi (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The weighted aggregation: each source node's feature row times its edge weight, summed into the target nodes. -/
def agg1 (x : (⟨S100000x64, .f32⟩ : BufTy).Contents (Elt F)) (ei : (⟨S2x1600000, .i32⟩ : BufTy).Contents (Elt F))
    (ew : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol ei)
    (mulf (Host.gather gather_S100000x64_S1600000x1_S1600000x64_1_0_n_n_0_1_164 x (srcCol ei))
      (broadcastInDim S1600000x64 ![0, 1] bcast_S1600000x1_S1600000x64_0_1 (broadcastInDim S1600000x1 ![0] bcast_S1600000_S1600000x1_0 ew)))

/-- The plain aggregation: each source node's row of `h`, summed into the target nodes. -/
def agg2 (h : (⟨S100000x64, .f32⟩ : BufTy).Contents (Elt F)) (ei : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 h (srcCol ei))

variable (m : (ℓ : Loc nD τ sig) → Buf (Elt F) ℓ) (ρ : Dev nD → PrngReg)

/-! ## At the first kernel's entry -/

set_option maxHeartbeats 8000000 in
theorem entry0_agg (c : Dev nD) :
    V1 m ρ c main_v16 = agg1 (m ((c : Thread nD τ).loc main_arg0)) (m ((c : Thread nD τ).loc main_arg1)) (m ((c : Thread nD τ).loc main_arg2)) := by
  show StableHlo.after hostOps0 (W0 m ρ c) (Proc.devRef .tc main_v16) = _
  after_results
  unfold agg1 dstCol srcCol
  rfl

theorem entry0_bias (c : Dev nD) :
    V1 m ρ c main_v17 = shapeCast S1x64 (m ((c : Thread nD τ).loc main_arg4)) shapeCasts_S64_S1x64 := by
  show StableHlo.after hostOps0 (W0 m ρ c) (Proc.devRef .tc main_v17) = _
  after_results
  rfl

theorem entry0_arg0 (c : Dev nD) : V1 m ρ c main_arg0 = m ((c : Thread nD τ).loc main_arg0) := by
  show StableHlo.after hostOps0 (W0 m ρ c) (Proc.devRef .tc main_arg0) = _
  after_results

theorem entry0_arg3 (c : Dev nD) : V1 m ρ c main_arg3 = m ((c : Thread nD τ).loc main_arg3) := by
  show StableHlo.after hostOps0 (W0 m ρ c) (Proc.devRef .tc main_arg3) = _
  after_results

theorem entry0_arg5 (c : Dev nD) : V1 m ρ c main_arg5 = m ((c : Thread nD τ).loc main_arg5) := by
  show StableHlo.after hostOps0 (W0 m ρ c) (Proc.devRef .tc main_arg5) = _
  after_results

/-! ## Between the kernels: what the first kernel's exit keeps -/

theorem w2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
  all_goals rfl

theorem w2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
  all_goals rfl

theorem w2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
  all_goals rfl

theorem w2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
  all_goals rfl

theorem w2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
  all_goals rfl

theorem w2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
  all_goals rfl

/-- The edges' source row, kept from the first stretch of host operations. -/
theorem w2_src (c : Dev nD) :
    W2 m ρ c (Proc.devRef .tc main_v1)
      = shapeCast S1600000 (extractStridedSlice S1x1600000 ![0, 0] (m ((c : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results
  all_goals rfl

/-- The edges' target row, kept from the first stretch of host operations. -/
theorem w2_dst (c : Dev nD) :
    W2 m ρ c (Proc.devRef .tc main_v3)
      = shapeCast S1600000 (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results
  all_goals rfl

/-- The first kernel's output array, as its write-backs left it. -/
theorem w2_layer (c : Dev nD) : W2 m ρ c (Proc.devRef .tc main_v18) = (dat0 (V1 m ρ) c).arrAt 5 cfg0.N := W2_arr m ρ c 5

/-! ## At the second kernel's entry -/

theorem entry1_layer (c : Dev nD) : V3 m ρ c main_v18 = (dat0 (V1 m ρ) c).arrAt 5 cfg0.N := by
  show StableHlo.after hostOps1 (W2 m ρ c) (Proc.devRef .tc main_v18) = _
  after_results
  exact w2_layer m ρ c

set_option maxHeartbeats 8000000 in
theorem entry1_agg (c : Dev nD) :
    V3 m ρ c main_v28 = agg2 ((dat0 (V1 m ρ) c).arrAt 5 cfg0.N) (m ((c : Thread nD τ).loc main_arg1)) := by
  show StableHlo.after hostOps1 (W2 m ρ c) (Proc.devRef .tc main_v28) = _
  after_results
  rw [w2_layer m ρ c, w2_src m ρ c, w2_dst m ρ c]
  unfold agg2 dstCol srcCol
  rfl

theorem entry1_bias (c : Dev nD) :
    V3 m ρ c main_v29 = shapeCast S1x64 (m ((c : Thread nD τ).loc main_arg7)) shapeCasts_S64_S1x64 := by
  show StableHlo.after hostOps1 (W2 m ρ c) (Proc.devRef .tc main_v29) = _
  after_results
  rw [w2_arg7 m ρ c]
  rfl

theorem entry1_outbias (c : Dev nD) :
    V3 m ρ c main_v30 = shapeCast S1x1 (m ((c : Thread nD τ).loc main_arg10)) shapeCasts_S1_S1x1 := by
  show StableHlo.after hostOps1 (W2 m ρ c) (Proc.devRef .tc main_v30) = _
  after_results
  rw [w2_arg10 m ρ c]
  rfl

theorem entry1_arg6 (c : Dev nD) : V3 m ρ c main_arg6 = m ((c : Thread nD τ).loc main_arg6) := by
  show StableHlo.after hostOps1 (W2 m ρ c) (Proc.devRef .tc main_arg6) = _
  after_results
  exact w2_arg6 m ρ c

theorem entry1_arg8 (c : Dev nD) : V3 m ρ c main_arg8 = m ((c : Thread nD τ).loc main_arg8) := by
  show StableHlo.after hostOps1 (W2 m ρ c) (Proc.devRef .tc main_arg8) = _
  after_results
  exact w2_arg8 m ρ c

theorem entry1_arg9 (c : Dev nD) : V3 m ρ c main_arg9 = m ((c : Thread nD τ).loc main_arg9) := by
  show StableHlo.after hostOps1 (W2 m ρ c) (Proc.devRef .tc main_arg9) = _
  after_results
  exact w2_arg9 m ρ c

end Cert.KernelIdeal.Host

end
-- ==== Proof.RefValue.lean ====
/-
  The reference program's three stages, read at an entry.

  Its first layer, second layer and read-out are, entry by entry, the layer and the read-out of `Layer.lean`: each
  matrix product is a plain sum over the 64 input features against a transposed weight matrix, the bias is a vector
  spread down the rows, and the activation is a compare and a select.  The reference adds the bias between the two
  products where the layer adds it last; addition of extended reals is commutative and associative, so the two sums agree.
-/
import proofs.«167857_j58153857188393_1_alg».proof.Proof.Gen.ReferenceIdeal.Read
import proofs.«167857_j58153857188393_1_alg».proof.Proof.Layer

noncomputable section

namespace Cert.ReferenceIdeal.RefValue

open Cert.ReferenceIdeal Cert.ReferenceIdeal.Gen Cert.ReferenceIdeal.Read Cert.GraphConv
open Idealize.ShloMosaic Idealize.ShloMosaic.ValueIdx

/-! ## Which entries each stage reads -/

theorem lidx18 (n : Fin 100000) (j k : Fin 64) : lidx_main_v18 (ix2 n j) k = ix2 n k := funext fun a => Fin.ext (by match a with | ⟨0, _⟩ => rfl | ⟨1, _⟩ => rfl)
theorem ridx18 (n : Fin 100000) (j k : Fin 64) : idx_main_v17 (ridx_main_v18 (ix2 n j) k) = ix2 j k := funext fun a => Fin.ext (by match a with | ⟨0, _⟩ => rfl | ⟨1, _⟩ => rfl)
theorem bidx20 (n : Fin 100000) (j : Fin 64) : idx_main_v19 (idx_main_v20 (ix2 n j)) = ix1 j :=
  funext fun a => Fin.ext (by match a with | ⟨0, _⟩ => rfl)
theorem lidx23 (n : Fin 100000) (j k : Fin 64) : lidx_main_v23 (ix2 n j) k = ix2 n k := funext fun a => Fin.ext (by match a with | ⟨0, _⟩ => rfl | ⟨1, _⟩ => rfl)
theorem ridx23 (n : Fin 100000) (j k : Fin 64) : idx_main_v22 (ridx_main_v23 (ix2 n j) k) = ix2 j k := funext fun a => Fin.ext (by match a with | ⟨0, _⟩ => rfl | ⟨1, _⟩ => rfl)
theorem lidx41 (n : Fin 100000) (j k : Fin 64) : lidx_main_v41 (ix2 n j) k = ix2 n k := funext fun a => Fin.ext (by match a with | ⟨0, _⟩ => rfl | ⟨1, _⟩ => rfl)
theorem ridx41 (n : Fin 100000) (j k : Fin 64) : idx_main_v40 (ridx_main_v41 (ix2 n j) k) = ix2 j k := funext fun a => Fin.ext (by match a with | ⟨0, _⟩ => rfl | ⟨1, _⟩ => rfl)
theorem bidx43 (n : Fin 100000) (j : Fin 64) : idx_main_v42 (idx_main_v43 (ix2 n j)) = ix1 j :=
  funext fun a => Fin.ext (by match a with | ⟨0, _⟩ => rfl)
theorem lidx46 (n : Fin 100000) (j k : Fin 64) : lidx_main_v46 (ix2 n j) k = ix2 n k := funext fun a => Fin.ext (by match a with | ⟨0, _⟩ => rfl | ⟨1, _⟩ => rfl)
theorem ridx46 (n : Fin 100000) (j k : Fin 64) : idx_main_v45 (ridx_main_v46 (ix2 n j) k) = ix2 j k := funext fun a => Fin.ext (by match a with | ⟨0, _⟩ => rfl | ⟨1, _⟩ => rfl)
theorem lidx54 (n : Fin 100000) (u : Fin 1) (k : Fin 64) : lidx_main_v54 (ix2 n u) k = ix2 n k := funext fun a => Fin.ext (by match a with | ⟨0, _⟩ => rfl | ⟨1, _⟩ => rfl)
theorem ridx54 (n : Fin 100000) (u : Fin 1) (k : Fin 64) : idx_main_v53 (ridx_main_v54 (ix2 n u) k) = ix2 0 k :=
  funext fun a => Fin.ext (by
    match a with
    | ⟨0, _⟩ => show u.val = 0; omega
    | ⟨1, _⟩ => rfl)
theorem bidx56 (n : Fin 100000) (u : Fin 1) : idx_main_v55 (idx_main_v56 (ix2 n u)) = ix1 0 :=
  funext fun a => Fin.ext (by match a with | ⟨0, _⟩ => rfl)

/-! ## The stages -/

/-- The first layer's output at node `n`, feature `j`: the layer of the first aggregation and the node features. -/
theorem layer1_apply (x0 : (⟨S100000x64, .f32⟩ : BufTy).Contents (Elt Ideal)) (x1 : (⟨S2x1600000, .i32⟩ : BufTy).Contents (Elt Ideal)) (x2 : (⟨S1600000, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal)) (n : Fin 100000) (j : Fin 64) :
    val_main_v29 (F := Ideal) x0 x1 x2 x3 x4 x5 (ix2 n j)
      = layerAt (a := 100000) (val_main_v16 (F := Ideal) x0 x1 x2) x0 x3 x5 (fun q => x4 (ix1 q)) n j := by
  rw [val_main_v29_apply, val_main_v26_apply, val_main_v28_apply, val_main_v24_apply, val_main_v21_apply, val_main_v18_apply,
    val_main_v23_apply, val_main_v25_apply, val_main_v27_apply, val_main_v20_apply, val_main_v19_apply, val_main_cst_1_apply,
    val_main_cst_2_apply]
  simp only [val_main_v17_apply, val_main_v22_apply, lidx18, ridx18, bidx20, lidx23, ridx23]
  unfold layerAt act
  simp only [Ideal.addf_def, Ideal.mulf_def, Ideal.ofBits_def]
  rw [add_right_comm (∑ k : Fin 64, val_main_v16 (F := Ideal) x0 x1 x2 (ix2 n k) * x3 (ix2 j k)) (x4 (ix1 j))
    (∑ k : Fin 64, x0 (ix2 n k) * x5 (ix2 j k))]

/-- The second layer's output at node `n`, feature `j`: the layer of the second aggregation and the first layer's output. -/
theorem layer2_apply (x0 : (⟨S100000x64, .f32⟩ : BufTy).Contents (Elt Ideal)) (x1 : (⟨S2x1600000, .i32⟩ : BufTy).Contents (Elt Ideal)) (x2 : (⟨S1600000, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (n : Fin 100000) (j : Fin 64) :
    val_main_v52 (F := Ideal) x0 x1 x2 x3 x4 x5 x6 x7 x8 (ix2 n j)
      = layerAt (a := 100000) (val_main_v39 (F := Ideal) x0 x1 x2 x3 x4 x5) (val_main_v29 (F := Ideal) x0 x1 x2 x3 x4 x5) x6 x8
          (fun q => x7 (ix1 q)) n j := by
  rw [val_main_v52_apply, val_main_v49_apply, val_main_v51_apply, val_main_v47_apply, val_main_v44_apply, val_main_v41_apply,
    val_main_v46_apply, val_main_v48_apply, val_main_v50_apply, val_main_v43_apply, val_main_v42_apply, val_main_cst_6_apply,
    val_main_cst_7_apply]
  simp only [val_main_v40_apply, val_main_v45_apply, lidx41, ridx41, bidx43, lidx46, ridx46]
  unfold layerAt act
  simp only [Ideal.addf_def, Ideal.mulf_def, Ideal.ofBits_def]
  rw [add_right_comm (∑ k : Fin 64, val_main_v39 (F := Ideal) x0 x1 x2 x3 x4 x5 (ix2 n k) * x6 (ix2 j k)) (x7 (ix1 j))
    (∑ k : Fin 64, val_main_v29 (F := Ideal) x0 x1 x2 x3 x4 x5 (ix2 n k) * x8 (ix2 j k))]

/-- The program's result at node `n`: the read-out of the second layer. -/
theorem readout_apply (x0 : (⟨S100000x64, .f32⟩ : BufTy).Contents (Elt Ideal)) (x1 : (⟨S2x1600000, .i32⟩ : BufTy).Contents (Elt Ideal)) (x2 : (⟨S1600000, .f32⟩ : BufTy).Contents (Elt Ideal))
    (x3 : (⟨S64x64, .f32⟩ : BufTy).Contents (Elt Ideal)) (x4 : (⟨S64, .f32⟩ : BufTy).Contents (Elt Ideal)) (x5 : (⟨S64x64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S1x64, .f32⟩ : BufTy).Contents (Elt Ideal)) (x10 : (⟨S1, .f32⟩ : BufTy).Contents (Elt Ideal))
    (n : Fin 100000) (u : Fin 1) :
    val_main_v57 (F := Ideal) x0 x1 x2 x3 x4 x5 x6 x7 x8 x9 x10 (ix2 n u)
      = headAt (a := 100000) (val_main_v39 (F := Ideal) x0 x1 x2 x3 x4 x5) (val_main_v29 (F := Ideal) x0 x1 x2 x3 x4 x5) x6 x8
          (fun q => x7 (ix1 q)) (fun q => x9 (ix2 0 q)) (x10 (ix1 0)) n := by
  rw [val_main_v57_apply, val_main_v54_apply, val_main_v56_apply, val_main_v55_apply]
  simp only [val_main_v53_apply, lidx54, ridx54, bidx56, layer2_apply]
  unfold headAt
  simp only [Ideal.addf_def]

end Cert.ReferenceIdeal.RefValue

end
-- ==== Proof.Bridge.lean ====
/-
  The two programs compute one function.

  The kernel program's result is the read-out of a second layer whose inputs are the plain aggregation of the first
  layer's output and that output itself; the first layer's inputs are the weighted aggregation of the node features and
  the node features.  The reference's stages are the same layers and read-out entry by entry, and its aggregations are
  the same host operations applied to equal arrays.  So the two results agree at every node.
-/
import proofs.«167857_j58153857188393_1_alg».proof.Proof.KernelArrays
import proofs.«167857_j58153857188393_1_alg».proof.Proof.KernelHost
import proofs.«167857_j58153857188393_1_alg».proof.Proof.RefValue

set_option maxRecDepth 16384

noncomputable section

namespace Cert.Bridge

open Cert.GraphConv Cert.KernelIdeal.Arrays Cert.KernelIdeal.Host
open Idealize.ShloMosaic Idealize.ShloMosaic.ValueIdx Idealize.SL.Sem

/-- The first layer's output, from the argument arrays. -/
def firstLayer (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) :
    Cert.KernelIdeal.S100000x64.Idx → Ideal .f32 :=
  layerArr (agg1 x0 x1 x2) x0 x3 x5 (shapeCast Cert.KernelIdeal.S1x64 x4 Cert.KernelIdeal.Facts₀.shapeCasts_S64_S1x64)

/-- The kernel program's result, from the argument arrays. -/
def kernelOut (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64x64, .f32⟩ : BufTy).Contents (Elt Ideal)) (x7 : (⟨Cert.KernelIdeal.S64, .f32⟩ : BufTy).Contents (Elt Ideal)) (x8 : (⟨Cert.KernelIdeal.S64x64, .f32⟩ : BufTy).Contents (Elt Ideal)) (x9 : (⟨Cert.KernelIdeal.S1x64, .f32⟩ : BufTy).Contents (Elt Ideal)) (x10 : (⟨Cert.KernelIdeal.S1, .f32⟩ : BufTy).Contents (Elt Ideal)) :
    Cert.KernelIdeal.S100000x1.Idx → Ideal .f32 :=
  headArr (agg2 (firstLayer x0 x1 x2 x3 x4 x5) x1) (firstLayer x0 x1 x2 x3 x4 x5) x6 x8
    (shapeCast Cert.KernelIdeal.S1x64 x7 Cert.KernelIdeal.Facts₀.shapeCasts_S64_S1x64) x9 (shapeCast Cert.KernelIdeal.S1x1 x10 Cert.KernelIdeal.Facts₀.shapeCasts_S1_S1x1)

/-- The reference's first aggregation is the kernel program's: the same host operations on the same arrays. -/
theorem ref_agg1 (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) :
    Cert.ReferenceIdeal.Read.val_main_v16 (F := Ideal) x0 x1 x2 = agg1 x0 x1 x2 := rfl

/-- The reference's first layer is the kernel program's, at every node and feature. -/
theorem ref_firstLayer (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) :
    Cert.ReferenceIdeal.Read.val_main_v29 (F := Ideal) x0 x1 x2 x3 x4 x5 = firstLayer x0 x1 x2 x3 x4 x5 := by
  funext i
  obtain ⟨n, j, rfl⟩ : ∃ (n : Fin 100000) (j : Fin 64), i = ix2 n j := ⟨i 0, i 1, eq_ix2 i⟩
  rw [Cert.ReferenceIdeal.RefValue.layer1_apply, ref_agg1]
  unfold firstLayer layerArr
  simp only [shapeCast_a_1a_apply]

/-- The reference's second aggregation is the kernel program's: the same host operations on equal arrays. -/
theorem ref_agg2 (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) :
    Cert.ReferenceIdeal.Read.val_main_v39 (F := Ideal) x0 x1 x2 x3 x4 x5 = agg2 (firstLayer x0 x1 x2 x3 x4 x5) x1 := by
  unfold Cert.ReferenceIdeal.Read.val_main_v39 Cert.ReferenceIdeal.Read.val_main_v36
  rw [ref_firstLayer]
  rfl

/-- THE BRIDGE: the reference's result is the kernel program's result, as functions of the argument arrays. -/
theorem ref_is_kernel (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S1600000, .f32⟩ : BufTy).Contents (Elt Ideal)) (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64x64, .f32⟩ : BufTy).Contents (Elt Ideal)) (x7 : (⟨Cert.KernelIdeal.S64, .f32⟩ : BufTy).Contents (Elt Ideal)) (x8 : (⟨Cert.KernelIdeal.S64x64, .f32⟩ : BufTy).Contents (Elt Ideal)) (x9 : (⟨Cert.KernelIdeal.S1x64, .f32⟩ : BufTy).Contents (Elt Ideal)) (x10 : (⟨Cert.KernelIdeal.S1, .f32⟩ : BufTy).Contents (Elt Ideal)) :
    Cert.ReferenceIdeal.Read.val_main_v57 (F := Ideal) x0 x1 x2 x3 x4 x5 x6 x7 x8 x9 x10 = kernelOut x0 x1 x2 x3 x4 x5 x6 x7 x8 x9 x10 := by
  funext i
  obtain ⟨n, u, rfl⟩ : ∃ (n : Fin 100000) (u : Fin 1), i = ix2 n u := ⟨i 0, i 1, eq_ix2 i⟩
  rw [Cert.ReferenceIdeal.RefValue.readout_apply, ref_agg2, ref_firstLayer]
  unfold kernelOut headArr
  simp only [shapeCast_a_1a_apply]

/-- The kernel program's result array after its run is `kernelOut` of the launch contents of the argument arrays. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.dat1 (Cert.KernelIdeal.Gen.V3 m ρ) c).arrAt 7 Cert.KernelIdeal.cfg1.N
      = kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [head_array (Cert.KernelIdeal.Gen.V3 m ρ) c, entry1_agg m ρ c, entry1_layer m ρ c, entry1_arg6 m ρ c, entry1_arg8 m ρ c, entry1_bias m ρ c,
    entry1_arg9 m ρ c, entry1_outbias m ρ c, layer_array (Cert.KernelIdeal.Gen.V1 m ρ) c, entry0_agg m ρ c, entry0_arg0 m ρ c, entry0_arg3 m ρ c,
    entry0_arg5 m ρ c, entry0_bias m ρ c]
  rfl

end Cert.Bridge

end
-- ==== Proof.lean ====
/-
  A two-layer graph convolution with a linear read-out on 100000 nodes and 1600000 weighted edges: the tiled-kernel
  program against its plain reference, on the extended reals.

  Both programs aggregate neighbour features by the same host operations (gather the source nodes' rows, scale by the
  edge weight in the first layer, add into the target nodes).  The kernel program then runs each layer's dense part —
  two 64×64 products, the bias, the activation, and after the second layer the 64-feature read-out — tile by tile over
  ten tiles of 10000 nodes; the reference runs the same arithmetic over whole arrays.  A product into a zero accumulator
  and the host's contraction are the same finite sum, a lane sum and a contraction against a one-column matrix are the
  same finite sum, and the reference's order of adding the bias differs only by commutativity and associativity of
  addition.  Hence the two results are equal at every node, for all extended-real inputs; finiteness of the inputs is
  not used.  The three frame claims are the programs' runs with the result forgotten, and the kernel is printed at the
  ideal values without any rewrite, so there is nothing to preserve.
-/
import proofs.«167857_j58153857188393_1_alg».proof.Defs
import proofs.«167857_j58153857188393_1_alg».proof.Proof.Gen.Kernel
import proofs.«167857_j58153857188393_1_alg».proof.Proof.Gen.Kernel.Frame
import proofs.«167857_j58153857188393_1_alg».proof.Proof.Gen.KernelIdeal
import proofs.«167857_j58153857188393_1_alg».proof.Proof.Gen.KernelIdeal.Frame
import proofs.«167857_j58153857188393_1_alg».proof.Proof.Gen.ReferenceIdeal
import proofs.«167857_j58153857188393_1_alg».proof.Proof.Gen.Pre_finite_inputs
import proofs.«167857_j58153857188393_1_alg».proof.Proof.Gen.ReferenceIdeal.Run
import proofs.«167857_j58153857188393_1_alg».proof.Proof.Gen.ReferenceIdeal.Read
import proofs.«167857_j58153857188393_1_alg».proof.Proof.KernelRun
import proofs.«167857_j58153857188393_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the same result array: the read-out of
    the second layer as a function of the eleven argument arrays. -/
theorem algebraic : Cert.algebraic_KernelIdeal_ReferenceIdeal := by
  intro m ρ m' ρ' _ hagree
  refine ⟨fun c => Cert.Bridge.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Bridge.kernel_value m ρ c), (h c).2⟩) (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v57_eq, h0, h1, h2, h3, h4, h5, h6, h7, h8, h9, h10]
    exact Cert.Bridge.ref_is_kernel _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
